-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x128x512 : Shape := ⟨3, ![4, 128, 512]⟩
abbrev S1024x1024 : Shape := ⟨2, ![1024, 1024]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x512x512 .f32) (main_arg1 : FVec F S4x128x512 .f32) (main_arg2 : FVec F S1024x1024 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x512x512 : Shape := ⟨3, ![4, 512, 512]⟩
abbrev S4x128x512 : Shape := ⟨3, ![4, 128, 512]⟩
abbrev S1024x1024 : Shape := ⟨2, ![1024, 1024]⟩
abbrev S1024x512 : Shape := ⟨2, ![1024, 512]⟩
abbrev S4x512x128x1024 : Shape := ⟨4, ![4, 512, 128, 1024]⟩
abbrev S1x32x512 : Shape := ⟨3, ![1, 32, 512]⟩
abbrev S1x128x512 : Shape := ⟨3, ![1, 128, 512]⟩
abbrev S1x32x128x1024 : Shape := ⟨4, ![1, 32, 128, 1024]⟩
abbrev S128x1024 : Shape := ⟨2, ![128, 1024]⟩
abbrev S128x512 : Shape := ⟨2, ![128, 512]⟩
abbrev S32x512 : Shape := ⟨2, ![32, 512]⟩
abbrev S32x1024 : Shape := ⟨2, ![32, 1024]⟩
abbrev S32x1x1024 : Shape := ⟨3, ![32, 1, 1024]⟩
abbrev S1x128x1024 : Shape := ⟨3, ![1, 128, 1024]⟩
abbrev S32x128x1024 : Shape := ⟨3, ![32, 128, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4x512x512, .f32⟩
  | .hbm, ⟨1, _⟩ => ⟨S4x128x512, .f32⟩
  | .hbm, ⟨2, _⟩ => ⟨S1024x1024, .f32⟩
  | .hbm, ⟨3, _⟩ => ⟨S1024x512, .f32⟩
  | .hbm, ⟨4, _⟩ => ⟨S1024x512, .bf16⟩
  | .hbm, ⟨5, _⟩ => ⟨S1024x512, .f32⟩
  | .hbm, ⟨6, _⟩ => ⟨S1024x512, .bf16⟩
  | .hbm, ⟨7, _⟩ => ⟨S4x512x128x1024, .f32⟩
  | .local _ .vmem, ⟨0, _⟩ => ⟨S1x32x512, .f32⟩
  | .local _ .vmem, ⟨1, _⟩ => ⟨S1x32x512, .f32⟩
  | .local _ .vmem, ⟨2, _⟩ => ⟨S1x128x512, .f32⟩
  | .local _ .vmem, ⟨3, _⟩ => ⟨S1x128x512, .f32⟩
  | .local _ .vmem, ⟨4, _⟩ => ⟨S1024x512, .bf16⟩
  | .local _ .vmem, ⟨5, _⟩ => ⟨S1024x512, .bf16⟩
  | .local _ .vmem, ⟨6, _⟩ => ⟨S1x32x128x1024, .f32⟩
  | .local _ .vmem, ⟨7, _⟩ => ⟨S1x32x128x1024, .f32⟩
  | .local _ .vmem, ⟨8, _⟩ => ⟨S128x1024, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S1024x1024_S1024x512_0_0 : S1024x1024.Slices ![0, 0] S1024x512
  bitsLt_bf16_f32 : FTy.bits .bf16 < FTy.bits .f32
  slices_S1024x1024_S1024x512_0_512 : S1024x1024.Slices ![0, 512] S1024x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x1024_S32x1x1024 : S32x1024.ShapeCasts S32x1x1024
  shapeCasts_S128x1024_S1x128x1024 : S128x1024.ShapeCasts S1x128x1024
  broadcasts_S32x1x1024_S32x128x1024 : S32x1x1024.Broadcasts S32x128x1024
  broadcasts_S1x128x1024_S32x128x1024 : S1x128x1024.Broadcasts S32x128x1024
  inb_S1x32x128x1024_S1x32x128x1024_0_0_0_0 : ∀ a, (![0, 0, 0, 0] : Fin 4 → Nat) a + S1x32x128x1024.size a ≤ S1x32x128x1024.size a
  h_S1x32x128x1024 : 0 < S1x32x128x1024.numel
  shapeCasts_S1x32x128x1024_S32x128x1024 : S1x32x128x1024.ShapeCasts S32x128x1024
  shapeCasts_S32x128x1024_S1x32x128x1024 : S32x128x1024.ShapeCasts S1x32x128x1024
  dot_S128x512_S1024x512_S128x1024_1_1_0_0_n_n_wf : DotDims.WF S128x512 S1024x512 S128x1024 [1] [1] [0] [0] [] []
  dot_S32x512_S1024x512_S32x1024_1_1_0_0_n_n_wf : DotDims.WF S32x512 S1024x512 S32x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x512x512.size a
  hwx0_0 : ∀ i : grid0.Coords, EltTy.bits .f32 = 32 ∨ (Rect.block (s := S4x512x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .f32 = 32 ∨ (Rect.block (s := S4x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128x1024.size a ≤ S4x512x128x1024.size a
  hwx0_4 : ∀ i : grid0.Coords, EltTy.bits .f32 = 32 ∨ (Rect.block (s := S4x512x128x1024) S1x32x128x1024.size (cc0_transform_4 i) (hinb0_4 i)).WholeWords (EltTy.packing .f32)

variable [Facts₀]

def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf
def dot_S32x512_S1024x512_S32x1024_1_1_0_0_n_n : DotDims S32x512 S1024x512 S32x1024 where
  lhsContracting := [1]
  rhsContracting := [1]
  lhsNonContracting := [0]
  rhsNonContracting := [0]
  lhsBatch := []
  rhsBatch := []
  wf := dot_S32x512_S1024x512_S32x1024_1_1_0_0_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x128x512 : Shape := ⟨3, ![4, 128, 512]⟩
abbrev S1024x1024 : Shape := ⟨2, ![1024, 1024]⟩
abbrev S1024x512 : Shape := ⟨2, ![1024, 512]⟩
abbrev S4x512x1024 : Shape := ⟨3, ![4, 512, 1024]⟩
abbrev S4x128x1024 : Shape := ⟨3, ![4, 128, 1024]⟩
abbrev S4x512x1x1024 : Shape := ⟨4, ![4, 512, 1, 1024]⟩
abbrev S4x1x128x1024 : Shape := ⟨4, ![4, 1, 128, 1024]⟩
abbrev S4x512x128x1024 : Shape := ⟨4, ![4, 512, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S4x512x1024, .f32⟩
  | .hbm, ⟨6, _⟩ => ⟨S4x128x1024, .f32⟩
  | .hbm, ⟨7, _⟩ => ⟨S4x512x1x1024, .f32⟩
  | .hbm, ⟨8, _⟩ => ⟨S4x1x128x1024, .f32⟩
  | .hbm, ⟨9, _⟩ => ⟨S4x512x128x1024, .f32⟩
  | .hbm, ⟨10, _⟩ => ⟨S4x512x128x1024, .f32⟩
  | .hbm, ⟨11, _⟩ => ⟨S4x512x128x1024, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x512x1024_S4x512x1x1024_0_1_3 : S4x512x1024.BroadcastsInDim S4x512x1x1024 (![0, 1, 3] : Fin 3 → Fin S4x512x1x1024.rank)
  bcast_S4x128x1024_S4x1x128x1024_0_2_3 : S4x128x1024.BroadcastsInDim S4x1x128x1024 (![0, 2, 3] : Fin 3 → Fin S4x1x128x1024.rank)
  bcast_S4x512x1x1024_S4x512x128x1024_0_1_2_3 : S4x512x1x1024.BroadcastsInDim S4x512x128x1024 (![0, 1, 2, 3] : Fin 4 → Fin S4x512x128x1024.rank)
  bcast_S4x1x128x1024_S4x512x128x1024_0_1_2_3 : S4x1x128x1024.BroadcastsInDim S4x512x128x1024 (![0, 1, 2, 3] : Fin 4 → Fin S4x512x128x1024.rank)
  dot_S4x512x512_S1024x512_S4x512x1024_2_1_01_0_n_n_wf : DotDims.WF S4x512x512 S1024x512 S4x512x1024 [2] [1] [0, 1] [0] [] []
  dot_S4x128x512_S1024x512_S4x128x1024_2_1_01_0_n_n_wf : DotDims.WF S4x128x512 S1024x512 S4x128x1024 [2] [1] [0, 1] [0] [] []

variable [Facts₀]

def dot_S4x512x512_S1024x512_S4x512x1024_2_1_01_0_n_n : DotDims S4x512x512 S1024x512 S4x512x1024 where
  lhsContracting := [2]
  rhsContracting := [1]
  lhsNonContracting := [0, 1]
  rhsNonContracting := [0]
  lhsBatch := []
  rhsBatch := []
  wf := dot_S4x512x512_S1024x512_S4x512x1024_2_1_01_0_n_n_wf
def dot_S4x128x512_S1024x512_S4x128x1024_2_1_01_0_n_n : DotDims S4x128x512 S1024x512 S4x128x1024 where
  lhsContracting := [2]
  rhsContracting := [1]
  lhsNonContracting := [0, 1]
  rhsNonContracting := [0]
  lhsBatch := []
  rhsBatch := []
  wf := dot_S4x128x512_S1024x512_S4x128x1024_2_1_01_0_n_n_wf

class Facts : Prop extends Facts₀ where

variable [Facts]
-- ==== Proof.JointSpec.lean ====
/-
  The result of the joint network as ONE function of the three argument arrays, over the extended reals.

  With `enc : [4, 512, 512]`, `dec : [4, 128, 512]` and the weight `W : [1024, 1024]`, whose row `v` holds the
  encoder half in columns `0 … 511` and the decoder half in columns `512 … 1023`,

      out[b, t, u, v] = (∑ d, enc[b, t, d] · W[v, d]) + (∑ d, dec[b, u, d] · W[v, 512 + d]).
-/
import Idealize.ShloMosaic.PureOps.Ideal
import Idealize.ShloMosaic.Lib.ValueIdx

noncomputable section

namespace Cert.Joint

open Idealize.ShloMosaic Idealize.ShloMosaic.ValueIdx

/-- Column `512 + d` of the weight: the decoder half's column `d`. -/
abbrev hi (d : Fin 512) : Fin 1024 := ⟨512 + d.val, by omega⟩

/-- Column `d` of the weight: the encoder half's column `d`. -/
abbrev lo (d : Fin 512) : Fin 1024 := ⟨d.val, by omega⟩

/-- The encoder projection: row `t` of batch `b` against row `v` of the weight's encoder half. -/
def encProj (enc : (⟨3, ![4, 512, 512]⟩ : Shape).Idx → EReal) (W : (⟨2, ![1024, 1024]⟩ : Shape).Idx → EReal)
    (b : Fin 4) (t : Fin 512) (v : Fin 1024) : EReal :=
  ∑ d : Fin 512, enc (ix3 b t d) * W (ix2 v (lo d))

/-- The decoder projection: row `u` of batch `b` against row `v` of the weight's decoder half. -/
def decProj (dec : (⟨3, ![4, 128, 512]⟩ : Shape).Idx → EReal) (W : (⟨2, ![1024, 1024]⟩ : Shape).Idx → EReal)
    (b : Fin 4) (u : Fin 128) (v : Fin 1024) : EReal :=
  ∑ d : Fin 512, dec (ix3 b u d) * W (ix2 v (hi d))

/-- The joint network's output, index by index. -/
def joint (enc : (⟨3, ![4, 512, 512]⟩ : Shape).Idx → EReal) (dec : (⟨3, ![4, 128, 512]⟩ : Shape).Idx → EReal)
    (W : (⟨2, ![1024, 1024]⟩ : Shape).Idx → EReal) : (⟨4, ![4, 512, 128, 1024]⟩ : Shape).Idx → EReal :=
  fun i => encProj enc W (i 0) (i 1) (i 3) + decProj dec W (i 0) (i 2) (i 3)

end Cert.Joint

end
-- ==== Proof.JointRef.lean ====
/-
  The reference computes the joint network's function.

  Its two `dot_general`s contract the last axis of an activation array with the last axis of one half of the weight
  (the slices `W[:, 0:512]` and `W[:, 512:1024]`), the two pairs of broadcasts place the encoder projection along the
  `u` axis and the decoder projection along the `t` axis, and the final addition joins them: at the index
  `(b, t, u, v)` the result is `encProj b t v + decProj b u v`.
-/
import proofs.«120367_j47897475285549_2_alg».proof.Proof.Gen.ReferenceIdeal.Read
import proofs.«120367_j47897475285549_2_alg».proof.Proof.JointSpec

noncomputable section

namespace Cert.Joint.Ref

open Cert.ReferenceIdeal Cert.ReferenceIdeal.Read Idealize.ShloMosaic Idealize.ShloMosaic.ValueIdx Cert.Joint

/-- Through the two broadcasts, the encoder `dot_general` reads the activation at `(b, t, k)`. -/
theorem enc_lhs (i : S4x512x128x1024.Idx) (k : Fin 512) :
    lidx_main_v2 (idx_main_v4 (idx_main_v6 i)) k = ix3 (i 0) (i 1) k :=
  funext fun a => Fin.ext (by match a with | ⟨0, _⟩ => rfl | ⟨1, _⟩ => rfl | ⟨2, _⟩ => rfl)

/-- … and the weight's encoder half at `(v, k)`, which is the weight at column `k`. -/
theorem enc_rhs (i : S4x512x128x1024.Idx) (k : Fin 512) :
    idx_main_v0 (ridx_main_v2 (idx_main_v4 (idx_main_v6 i)) k) = ix2 (i 3) (lo k) :=
  funext fun a => Fin.ext (by match a with | ⟨0, _⟩ => rfl | ⟨1, _⟩ => rfl)

/-- Through the two broadcasts, the decoder `dot_general` reads the activation at `(b, u, k)`. -/
theorem dec_lhs (i : S4x512x128x1024.Idx) (k : Fin 512) :
    lidx_main_v3 (idx_main_v5 (idx_main_v7 i)) k = ix3 (i 0) (i 2) k :=
  funext fun a => Fin.ext (by match a with | ⟨0, _⟩ => rfl | ⟨1, _⟩ => rfl | ⟨2, _⟩ => rfl)

/-- … and the weight's decoder half at `(v, k)`, which is the weight at column `512 + k`. -/
theorem dec_rhs (i : S4x512x128x1024.Idx) (k : Fin 512) :
    idx_main_v1 (ridx_main_v3 (idx_main_v5 (idx_main_v7 i)) k) = ix2 (i 3) (hi k) :=
  funext fun a => Fin.ext (by match a with | ⟨0, _⟩ => rfl | ⟨1, _⟩ => rfl)

/-- The reference's result, as a function of its three arguments, is `joint`. -/
theorem ref_eq_joint (x0 : S4x512x512.Idx → EReal) (x1 : S4x128x512.Idx → EReal) (x2 : S1024x1024.Idx → EReal) :
    val_main_v8 (F := Ideal) x0 x1 x2 = joint x0 x1 x2 := by
  funext i
  rw [val_main_v8_apply, val_main_v6_apply, val_main_v4_apply, val_main_v2_apply, val_main_v7_apply,
    val_main_v5_apply, val_main_v3_apply]
  simp only [val_main_v0_apply, val_main_v1_apply, enc_lhs, enc_rhs, dec_lhs, dec_rhs, Ideal.addf_def]
  rfl

end Cert.Joint.Ref

end
-- ==== Proof.JointPieces.lean ====
/-
  What one run of the kernel body leaves behind, as values.

  The body has two control cases. At the first tile of a batch (case A) it stores the decoder projection of the
  batch's decoder block into the scratch buffer and then, reading that scratch back, stores the output block; at
  every other tile (case B) it leaves the scratch alone and stores the output block over what the scratch already
  holds. Each store covers its whole buffer, so what a buffer holds afterwards is exactly the stored value:

    scratch after A  =  decoder payload of (decoder block, decoder weight)
    output  after A  =  output payload of (encoder block, encoder weight, that decoder payload)
    output  after B  =  output payload of (encoder block, encoder weight, the scratch as found)
-/
import proofs.«120367_j47897475285549_2_alg».proof.Proof.Gen.KernelIdeal.Frame
import Idealize.ShloMosaic.Lib.Pipeline.Value
import Idealize.ShloMosaic.Lib.Tactic

noncomputable section

namespace Cert.KernelIdeal.JointPieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Case A leaves the decoder payload in the scratch. -/
theorem scratch_A (c : Dev nD) (i : grid0.Coords) (a2 : Memref sig .tc .vmem S1x32x512 .f32) (h2 : a2.IsWhole) (a3 : Memref sig .tc .vmem S1x128x512 .f32) (h3 : a3.IsWhole)
    (a4 : Memref sig .tc .vmem S1024x512 .bf16) (h4 : a4.IsWhole) (a5 : Memref sig .tc .vmem S1024x512 .bf16) (h5 : a5.IsWhole)
    (a6 : Memref sig .tc .vmem S1x32x128x1024 .f32) (h6 : a6.IsWhole) (a7 : Memref sig .tc .vmem S128x1024 .f32) (h7 : a7.IsWhole) (hc : cond0_0 i)
    (x0 : Vec F S1x32x512 .f32) (x1 : Vec F S1x128x512 .f32) (x2 : Vec F S1024x512 .bf16) (x3 : Vec F S1024x512 .bf16) :
    sout0_A_0 c i a2 h2 a3 h3 a4 h4 a5 h5 a6 h6 a7 h7 hc x0 x1 x2 x3 = k0_pay1 x1 x3 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz2]
  simp only [View.readAt_eq_ld, h3.read_unread, h5.read_unread, View.ld_unit_zero (S := S1x128x512) hz3,
    View.ld_unit_zero (S := S1024x512) hz2]

/-- Case A leaves in the output block the output payload over the decoder payload it has just stored: the body's
    read of the scratch comes after its store, and a whole-buffer read of a whole-buffer store is the stored value. -/
theorem out_A (c : Dev nD) (i : grid0.Coords) (a2 : Memref sig .tc .vmem S1x32x512 .f32) (h2 : a2.IsWhole) (a3 : Memref sig .tc .vmem S1x128x512 .f32) (h3 : a3.IsWhole)
    (a4 : Memref sig .tc .vmem S1024x512 .bf16) (h4 : a4.IsWhole) (a5 : Memref sig .tc .vmem S1024x512 .bf16) (h5 : a5.IsWhole)
    (a6 : Memref sig .tc .vmem S1x32x128x1024 .f32) (h6 : a6.IsWhole) (a7 : Memref sig .tc .vmem S128x1024 .f32) (h7 : a7.IsWhole) (hc : cond0_0 i)
    (x0 : Vec F S1x32x512 .f32) (x1 : Vec F S1x128x512 .f32) (x2 : Vec F S1024x512 .bf16) (x3 : Vec F S1024x512 .bf16) :
    out0_A_4 c i a2 h2 a3 h3 a4 h4 a5 h5 a6 h6 a7 h7 hc x0 x1 x2 x3 = k0_pay2 x0 x2 (k0_pay1 x1 x3) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz4, View.readCov_unit_zero (S := S128x1024) _ hz2]
  simp only [View.readAt_eq_ld, h2.read_unread, h3.read_unread, h4.read_unread, h5.read_unread,
    View.ld_unit_zero (S := S1x32x512) hz3, View.ld_unit_zero (S := S1x128x512) hz3, View.ld_unit_zero (S := S1024x512) hz2]

/-- Case B leaves in the output block the output payload over the scratch as it found it. -/
theorem out_B (c : Dev nD) (i : grid0.Coords) (a2 : Memref sig .tc .vmem S1x32x512 .f32) (h2 : a2.IsWhole) (a3 : Memref sig .tc .vmem S1x128x512 .f32) (h3 : a3.IsWhole)
    (a4 : Memref sig .tc .vmem S1024x512 .bf16) (h4 : a4.IsWhole) (a5 : Memref sig .tc .vmem S1024x512 .bf16) (h5 : a5.IsWhole)
    (a6 : Memref sig .tc .vmem S1x32x128x1024 .f32) (h6 : a6.IsWhole) (a7 : Memref sig .tc .vmem S128x1024 .f32) (h7 : a7.IsWhole) (hc : ¬cond0_0 i)
    (x0 : Vec F S1x32x512 .f32) (x1 : Vec F S1x128x512 .f32) (x2 : Vec F S1024x512 .bf16) (x3 : Vec F S1024x512 .bf16)
    (xs : Vec F S128x1024 .f32) :
    out0_B_4 c i a2 h2 a3 h3 a4 h4 a5 h5 a6 h6 a7 h7 hc x0 x1 x2 x3 xs = k0_pay2 x0 x2 xs := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero hz4]
  simp only [View.readAt_eq_ld, h2.read_unread, h4.read_unread, h7.read_unread,
    View.ld_unit_zero (S := S1x32x512) hz3, View.ld_unit_zero (S := S1024x512) hz2, View.ld_unit_zero (S := S128x1024) hz2]

end Cert.KernelIdeal.JointPieces

end
-- ==== Proof.JointPayload.lean ====
/-
  The two stored values of the kernel body, read at an index over the extended reals.

  The decoder payload is a matrix product into a zero accumulator, `[128, 512] × [1024, 512]ᵀ` contracting the last
  axis of both: at `(u, v)` it is `∑ d, x[0, u, d] · w[v, d]` (the rounding to bf16 is the identity on the extended
  reals, and the unit leading axis of the block is cast away).

  The output payload adds the encoder product, broadcast along the `u` axis, to the scratch, broadcast along the tile
  axis: at `(0, r, u, v)` it is `(∑ d, x[0, r, d] · w[v, d]) + s[u, v]`.
-/
import proofs.«120367_j47897475285549_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.JointPayload

open Cert.KernelIdeal Cert.KernelIdeal.Gen Idealize.ShloMosaic Idealize.ShloMosaic.ValueIdx

/-- The dec product's left operand at output `j`, contraction `q`: row `j 0`, column `q`. -/
theorem dec_lhs_0 (j : S128x1024.Idx) (q : dot_S128x512_S1024x512_S128x1024_1_1_0_0_n_n.contr.Idx) : (dot_S128x512_S1024x512_S128x1024_1_1_0_0_n_n.lhsIdx j q 0).val = (j 0).val := by
  unfold DotDims.lhsIdx
  rw [dif_neg (show ¬(0 : Fin S128x512.rank) ∈ dot_S128x512_S1024x512_S128x1024_1_1_0_0_n_n.lhsBatch by decide), dif_pos (show (0 : Fin S128x512.rank) ∈ dot_S128x512_S1024x512_S128x1024_1_1_0_0_n_n.lhsNonContracting by decide)]
  rfl
theorem dec_lhs_1 (j : S128x1024.Idx) (q : dot_S128x512_S1024x512_S128x1024_1_1_0_0_n_n.contr.Idx) : (dot_S128x512_S1024x512_S128x1024_1_1_0_0_n_n.lhsIdx j q 1).val = (q ⟨0, by decide⟩).val :=
  dot_S128x512_S1024x512_S128x1024_1_1_0_0_n_n.lhsIdx_val_of_single rfl j q
/-- … and its right operand: row `j 1`, column `q` (both operands are contracted along their last axis). -/
theorem dec_rhs_0 (j : S128x1024.Idx) (q : dot_S128x512_S1024x512_S128x1024_1_1_0_0_n_n.contr.Idx) : (dot_S128x512_S1024x512_S128x1024_1_1_0_0_n_n.rhsIdx j q 0).val = (j 1).val := by
  unfold DotDims.rhsIdx
  rw [dif_neg (show ¬(0 : Fin S1024x512.rank) ∈ dot_S128x512_S1024x512_S128x1024_1_1_0_0_n_n.rhsBatch by decide), dif_pos (show (0 : Fin S1024x512.rank) ∈ dot_S128x512_S1024x512_S128x1024_1_1_0_0_n_n.rhsNonContracting by decide)]
  rfl
theorem dec_rhs_1 (j : S128x1024.Idx) (q : dot_S128x512_S1024x512_S128x1024_1_1_0_0_n_n.contr.Idx) : (dot_S128x512_S1024x512_S128x1024_1_1_0_0_n_n.rhsIdx j q 1).val = (q ⟨0, by decide⟩).val :=
  dot_S128x512_S1024x512_S128x1024_1_1_0_0_n_n.rhsIdx_val_of_single rfl j q

/-- The dec product `[128, 512] × [1024, 512]ᵀ` into the zero accumulator, at `(u, v)`: the sum over the shared last axis. -/
theorem dec_matmul_apply (l : FVec Ideal S128x512 .bf16) (r : FVec Ideal S1024x512 .bf16) (u : Fin 128) (v : Fin 1024) :
    matmul dot_S128x512_S1024x512_S128x1024_1_1_0_0_n_n none l r (constant (F := Ideal) S128x1024 .f32 0x00000000#32) (ix2 u v)
      = ∑ d : Fin 512, l (ix2 u d) * r (ix2 v d) := by
  refine (Ideal.matmul_constant_zero_apply dot_S128x512_S1024x512_S128x1024_1_1_0_0_n_n none l r (ix2 u v)).trans ?_
  rw [← Equiv.sum_comp (contrEquiv1 dot_S128x512_S1024x512_S128x1024_1_1_0_0_n_n 512 rfl rfl).symm]
  refine Finset.sum_congr rfl fun k _ => ?_
  have hk := contrEquiv1_symm_val dot_S128x512_S1024x512_S128x1024_1_1_0_0_n_n 512 rfl rfl k
  have el : dot_S128x512_S1024x512_S128x1024_1_1_0_0_n_n.lhsIdx (ix2 u v) ((contrEquiv1 dot_S128x512_S1024x512_S128x1024_1_1_0_0_n_n 512 rfl rfl).symm k) = ix2 u k :=
    funext fun a => Fin.ext (by
      match a with
      | ⟨0, _⟩ => exact dec_lhs_0 _ _
      | ⟨1, _⟩ => exact (dec_lhs_1 _ _).trans hk)
  have er : dot_S128x512_S1024x512_S128x1024_1_1_0_0_n_n.rhsIdx (ix2 u v) ((contrEquiv1 dot_S128x512_S1024x512_S128x1024_1_1_0_0_n_n 512 rfl rfl).symm k) = ix2 v k :=
    funext fun a => Fin.ext (by
      match a with
      | ⟨0, _⟩ => exact dec_rhs_0 _ _
      | ⟨1, _⟩ => exact (dec_rhs_1 _ _).trans hk)
  rw [el, er]

/-- The enc product's left operand at output `j`, contraction `q`: row `j 0`, column `q`. -/
theorem enc_lhs_0 (j : S32x1024.Idx) (q : dot_S32x512_S1024x512_S32x1024_1_1_0_0_n_n.contr.Idx) : (dot_S32x512_S1024x512_S32x1024_1_1_0_0_n_n.lhsIdx j q 0).val = (j 0).val := by
  unfold DotDims.lhsIdx
  rw [dif_neg (show ¬(0 : Fin S32x512.rank) ∈ dot_S32x512_S1024x512_S32x1024_1_1_0_0_n_n.lhsBatch by decide), dif_pos (show (0 : Fin S32x512.rank) ∈ dot_S32x512_S1024x512_S32x1024_1_1_0_0_n_n.lhsNonContracting by decide)]
  rfl
theorem enc_lhs_1 (j : S32x1024.Idx) (q : dot_S32x512_S1024x512_S32x1024_1_1_0_0_n_n.contr.Idx) : (dot_S32x512_S1024x512_S32x1024_1_1_0_0_n_n.lhsIdx j q 1).val = (q ⟨0, by decide⟩).val :=
  dot_S32x512_S1024x512_S32x1024_1_1_0_0_n_n.lhsIdx_val_of_single rfl j q
/-- … and its right operand: row `j 1`, column `q` (both operands are contracted along their last axis). -/
theorem enc_rhs_0 (j : S32x1024.Idx) (q : dot_S32x512_S1024x512_S32x1024_1_1_0_0_n_n.contr.Idx) : (dot_S32x512_S1024x512_S32x1024_1_1_0_0_n_n.rhsIdx j q 0).val = (j 1).val := by
  unfold DotDims.rhsIdx
  rw [dif_neg (show ¬(0 : Fin S1024x512.rank) ∈ dot_S32x512_S1024x512_S32x1024_1_1_0_0_n_n.rhsBatch by decide), dif_pos (show (0 : Fin S1024x512.rank) ∈ dot_S32x512_S1024x512_S32x1024_1_1_0_0_n_n.rhsNonContracting by decide)]
  rfl
theorem enc_rhs_1 (j : S32x1024.Idx) (q : dot_S32x512_S1024x512_S32x1024_1_1_0_0_n_n.contr.Idx) : (dot_S32x512_S1024x512_S32x1024_1_1_0_0_n_n.rhsIdx j q 1).val = (q ⟨0, by decide⟩).val :=
  dot_S32x512_S1024x512_S32x1024_1_1_0_0_n_n.rhsIdx_val_of_single rfl j q

/-- The enc product `[32, 512] × [1024, 512]ᵀ` into the zero accumulator, at `(p, v)`: the sum over the shared last axis. -/
theorem enc_matmul_apply (l : FVec Ideal S32x512 .bf16) (r : FVec Ideal S1024x512 .bf16) (p : Fin 32) (v : Fin 1024) :
    matmul dot_S32x512_S1024x512_S32x1024_1_1_0_0_n_n none l r (constant (F := Ideal) S32x1024 .f32 0x00000000#32) (ix2 p v)
      = ∑ d : Fin 512, l (ix2 p d) * r (ix2 v d) := by
  refine (Ideal.matmul_constant_zero_apply dot_S32x512_S1024x512_S32x1024_1_1_0_0_n_n none l r (ix2 p v)).trans ?_
  rw [← Equiv.sum_comp (contrEquiv1 dot_S32x512_S1024x512_S32x1024_1_1_0_0_n_n 512 rfl rfl).symm]
  refine Finset.sum_congr rfl fun k _ => ?_
  have hk := contrEquiv1_symm_val dot_S32x512_S1024x512_S32x1024_1_1_0_0_n_n 512 rfl rfl k
  have el : dot_S32x512_S1024x512_S32x1024_1_1_0_0_n_n.lhsIdx (ix2 p v) ((contrEquiv1 dot_S32x512_S1024x512_S32x1024_1_1_0_0_n_n 512 rfl rfl).symm k) = ix2 p k :=
    funext fun a => Fin.ext (by
      match a with
      | ⟨0, _⟩ => exact enc_lhs_0 _ _
      | ⟨1, _⟩ => exact (enc_lhs_1 _ _).trans hk)
  have er : dot_S32x512_S1024x512_S32x1024_1_1_0_0_n_n.rhsIdx (ix2 p v) ((contrEquiv1 dot_S32x512_S1024x512_S32x1024_1_1_0_0_n_n 512 rfl rfl).symm k) = ix2 v k :=
    funext fun a => Fin.ext (by
      match a with
      | ⟨0, _⟩ => exact enc_rhs_0 _ _
      | ⟨1, _⟩ => exact (enc_rhs_1 _ _).trans hk)
  rw [el, er]

/-- A `[32, 1024]` array cast to `[32, 1, 1024]` reads, at `(p, z, v)`, the operand at `(p, v)`: the same row-major position. -/
theorem cast_mid_unit_apply {α : Type} (x : S32x1024.Idx → α) (h : S32x1024.ShapeCasts S32x1x1024) (p : Fin 32) (z : Fin 1) (v : Fin 1024) :
    shapeCast S32x1x1024 x h (ix3 p z v) = x (ix2 p v) :=
  shapeCast_apply x h _ _ (by
    have hz : z.val = 0 := by omega
    rw [Shape.rowMajor_val_two, Shape.rowMajor_val_three]
    show p.val * 1024 + v.val = (p.val * 1 + z.val) * 1024 + v.val
    rw [hz]; omega)

/-- The decoder payload at `(u, v)`. -/
theorem pay1_apply (x1 : Vec Ideal S1x128x512 .f32) (x3 : Vec Ideal S1024x512 .bf16) (u : Fin 128) (v : Fin 1024) :
    k0_pay1 (F := Ideal) x1 x3 (ix2 u v) = ∑ d : Fin 512, x1 (ix3 (0 : Fin 1) u d) * x3 (ix2 v d) := by
  unfold k0_pay1
  rw [shapeCast_self]
  refine (dec_matmul_apply _ _ u v).trans ?_
  refine Finset.sum_congr rfl fun d _ => ?_
  rw [shapeCast_self]
  exact congrArg (· * x3 (ix2 v d)) (shapeCast_1ab_ab_apply x1 _ u d)

/-- The output payload at `(0, p, u, v)`. -/
theorem pay2_apply (x0 : Vec Ideal S1x32x512 .f32) (x2 : Vec Ideal S1024x512 .bf16) (s : Vec Ideal S128x1024 .f32)
    (p : Fin 32) (u : Fin 128) (v : Fin 1024) :
    k0_pay2 (F := Ideal) x0 x2 s (ix4 (0 : Fin 1) p u v)
      = (∑ d : Fin 512, x0 (ix3 (0 : Fin 1) p d) * x2 (ix2 v d)) + s (ix2 u v) := by
  unfold k0_pay2
  refine (shapeCast_abc_1abc_apply _ _ (0 : Fin 1) p u v).trans ?_
  refine (addf_apply _ _ (ix3 p u v)).trans ?_
  have e1 : ∀ (y : S32x1x1024.Idx → EReal) (hb : S32x1x1024.Broadcasts S32x128x1024),
      broadcastTo S32x128x1024 y hb (ix3 p u v) = y (ix3 p (0 : Fin 1) v) := fun y hb =>
    broadcastTo_apply y hb (ix3 p u v) (ix3 p (0 : Fin 1) v) (fun a => by
      match a with
      | ⟨0, _⟩ => show p.val = if (32 : Nat) = 1 then 0 else p.val; rw [if_neg (by decide)]
      | ⟨1, _⟩ => show (0 : Nat) = if (1 : Nat) = 1 then 0 else u.val; rw [if_pos rfl]
      | ⟨2, _⟩ => show v.val = if (1024 : Nat) = 1 then 0 else v.val; rw [if_neg (by decide)])
  have e2 : ∀ (y : S1x128x1024.Idx → EReal) (hb : S1x128x1024.Broadcasts S32x128x1024),
      broadcastTo S32x128x1024 y hb (ix3 p u v) = y (ix3 (0 : Fin 1) u v) := fun y hb =>
    broadcastTo_apply y hb (ix3 p u v) (ix3 (0 : Fin 1) u v) (fun a => by
      match a with
      | ⟨0, _⟩ => show (0 : Nat) = if (1 : Nat) = 1 then 0 else p.val; rw [if_pos rfl]
      | ⟨1, _⟩ => show u.val = if (128 : Nat) = 1 then 0 else u.val; rw [if_neg (by decide)]
      | ⟨2, _⟩ => show v.val = if (1024 : Nat) = 1 then 0 else v.val; rw [if_neg (by decide)])
  rw [e1, e2, cast_mid_unit_apply, shapeCast_ab_1ab_apply]
  refine congrArg (· + s (ix2 u v)) ?_
  refine (enc_matmul_apply _ _ p v).trans ?_
  refine Finset.sum_congr rfl fun d _ => ?_
  rw [shapeCast_self]
  exact congrArg (· * x2 (ix2 v d)) (shapeCast_1ab_ab_apply x0 _ p d)

end Cert.KernelIdeal.JointPayload

end
-- ==== Proof.JointBlocks.lean ====
/-
  What each staged block holds, as entries of the argument arrays.

  The grid has 64 points; point `t` works on batch `t / 16` and on the 32 rows `32 · (t % 16) … 32 · (t % 16) + 31` of
  the `t` axis. At that point

    the encoder block  at (0, p, d)  is  enc[t / 16, 32 · (t % 16) + p, d],
    the decoder block  at (0, u, d)  is  dec[t / 16, u, d],
    the encoder weight at (v, d)     is  W[v, d],
    the decoder weight at (v, d)     is  W[v, 512 + d];

  the two weight windows stage whole arrays that the host wrote before the call: a slice of `W` rounded to bf16, and
  the rounding is the identity on the extended reals.
-/
import proofs.«120367_j47897475285549_2_alg».proof.Proof.Gen.KernelIdeal.Frame
import proofs.«120367_j47897475285549_2_alg».proof.Proof.JointSpec
import Idealize.ShloMosaic.Lib.Pipeline.Value
import Idealize.ShloMosaic.Lib.ValueIdx
import Idealize.ShloMosaic.Lib.StableHlo.Run

noncomputable section

namespace Cert.KernelIdeal.JointBlocks

open Cert.KernelIdeal Cert.KernelIdeal.Gen Idealize.ShloMosaic Idealize.ShloMosaic.TcCoe Idealize.SL.Sem
open Idealize.ShloMosaic.ValueIdx Idealize.ShloMosaic.StableHlo Cert.Joint

variable (m : (ℓ : Loc nD τ sig) → Buf (Elt Ideal) ℓ)

/-- A grid point's position is below 64. -/
theorem lt64 (t : Fin cfg0.N) : t.val < 64 := lt_of_lt_of_eq t.isLt (show cfg0.N = 64 from N_0)

/-- The batch point `t` works on. -/
def batchOf (t : Fin cfg0.N) : Fin 4 := ⟨t.val / 16, by have := lt64 t; omega⟩

/-- Row `p` of point `t`'s tile, as a row of the `t` axis. -/
def rowOf (t : Fin cfg0.N) (p : Fin 32) : Fin 512 := ⟨32 * (t.val % 16) + p.val, by have := lt64 t; omega⟩

/-- The windows' index maps at every one of the 64 grid points: the batch is `t / 16`, the tile `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val / 16 ∧ win0_4.index t (1 : Fin 4) = t.val % 16
    ∧ win0_4.index t (2 : Fin 4) = 0 ∧ win0_4.index t (3 : Fin 4) = 0 :=
  (by decide +kernel : ∀ t : Fin grid0.N, _)

/-- The encoder block at `(0, p, d)`. -/
theorem enc_read (c : Dev nD) (t : Fin cfg0.N) (p : Fin 32) (d : Fin 512) :
    (iblk m c 0 t : Vec Ideal S1x32x512 .f32) (ix3 (0 : Fin 1) p d)
      = m ((c : Thread nD τ).loc main_arg0) (ix3 (batchOf t) (rowOf t p) d) := by
  obtain ⟨e0, e1, e2, -⟩ := idx_facts t
  refine Eq.trans ?_ (congrFun (V_main_arg0 m c) _)
  show V m c main_arg0 (((cfg0.win 0).blk t).view.emb (ix3 (0 : Fin 1) p d)) = V m c main_arg0 _
  refine congrArg (V m c main_arg0) (funext fun a => Fin.ext ?_)
  match a with
  | ⟨0, _⟩ => show win0_0.index t (0 : Fin 3) * 1 + 1 * (0 : Nat) = t.val / 16; omega
  | ⟨1, _⟩ => show win0_0.index t (1 : Fin 3) * 32 + 1 * p.val = 32 * (t.val % 16) + p.val; omega
  | ⟨2, _⟩ => show win0_0.index t (2 : Fin 3) * 512 + 1 * d.val = d.val; omega

/-- The decoder block at `(0, u, d)`. -/
theorem dec_read (c : Dev nD) (t : Fin cfg0.N) (u : Fin 128) (d : Fin 512) :
    (iblk m c 1 t : Vec Ideal S1x128x512 .f32) (ix3 (0 : Fin 1) u d)
      = m ((c : Thread nD τ).loc main_arg1) (ix3 (batchOf t) u d) := by
  obtain ⟨-, -, -, e0, e1, e2, -⟩ := idx_facts t
  refine Eq.trans ?_ (congrFun (V_main_arg1 m c) _)
  show V m c main_arg1 (((cfg0.win 1).blk t).view.emb (ix3 (0 : Fin 1) u d)) = V m c main_arg1 _
  refine congrArg (V m c main_arg1) (funext fun a => Fin.ext ?_)
  match a with
  | ⟨0, _⟩ => show win0_1.index t (0 : Fin 3) * 1 + 1 * (0 : Nat) = t.val / 16; omega
  | ⟨1, _⟩ => show win0_1.index t (1 : Fin 3) * 128 + 1 * u.val = u.val; omega
  | ⟨2, _⟩ => show win0_1.index t (2 : Fin 3) * 512 + 1 * d.val = d.val; omega

/-- The array the encoder-weight window stages, as the host left it: the slice `W[:, 0:512]`, rounded. -/
theorem wenc_entry (c : Dev nD) :
    (V m c main_v1 : S1024x512.Idx → EReal)
      = truncf (F := Ideal) .bf16 (extractStridedSlice S1024x512 ![0, 0] (m ((c : Thread nD τ).loc main_arg2) : S1024x1024.Idx → Ideal .f32) slices_S1024x1024_S1024x512_0_0) bitsLt_bf16_f32 := by
  dsimp only [V, hostOps0]
  after_results

/-- The array the decoder-weight window stages, as the host left it: the slice `W[:, 512:1024]`, rounded. -/
theorem wdec_entry (c : Dev nD) :
    (V m c main_v3 : S1024x512.Idx → EReal)
      = truncf (F := Ideal) .bf16 (extractStridedSlice S1024x512 ![0, 512] (m ((c : Thread nD τ).loc main_arg2) : S1024x1024.Idx → Ideal .f32) slices_S1024x1024_S1024x512_0_512) bitsLt_bf16_f32 := by
  dsimp only [V, hostOps0]
  after_results

/-- The encoder weight block at `(v, d)`. -/
theorem wenc_read (c : Dev nD) (t : Fin cfg0.N) (v : Fin 1024) (d : Fin 512) :
    (iblk m c 2 t : Vec Ideal S1024x512 .bf16) (ix2 v d) = m ((c : Thread nD τ).loc main_arg2) (ix2 v (lo d)) := by
  obtain ⟨-, -, -, -, -, -, e0, e1, -⟩ := idx_facts t
  have hidx : ((cfg0.win 2).blk t).view.emb (ix2 v d) = ix2 v d := funext fun a => Fin.ext (by
    match a with
    | ⟨0, _⟩ => show win0_2.index t (0 : Fin 2) * 1024 + 1 * v.val = v.val; omega
    | ⟨1, _⟩ => show win0_2.index t (1 : Fin 2) * 512 + 1 * d.val = d.val; omega)
  show V m c main_v1 (((cfg0.win 2).blk t).view.emb (ix2 v d)) = _
  rw [hidx]
  refine (congrFun (wenc_entry m c) (ix2 v d)).trans ?_
  show extractStridedSlice S1024x512 ![0, 0] (m ((c : Thread nD τ).loc main_arg2)) slices_S1024x1024_S1024x512_0_0 (ix2 v d) = _
  exact extractStridedSlice_apply ![0, 0] _ slices_S1024x1024_S1024x512_0_0 (ix2 v d) (ix2 v (lo d)) (fun a => by
    match a with
    | ⟨0, _⟩ => show v.val = 0 + v.val; omega
    | ⟨1, _⟩ => show d.val = 0 + d.val; omega)

/-- The decoder weight block at `(v, d)`. -/
theorem wdec_read (c : Dev nD) (t : Fin cfg0.N) (v : Fin 1024) (d : Fin 512) :
    (iblk m c 3 t : Vec Ideal S1024x512 .bf16) (ix2 v d) = m ((c : Thread nD τ).loc main_arg2) (ix2 v (hi d)) := by
  obtain ⟨-, -, -, -, -, -, -, -, e0, e1, -⟩ := idx_facts t
  have hidx : ((cfg0.win 3).blk t).view.emb (ix2 v d) = ix2 v d := funext fun a => Fin.ext (by
    match a with
    | ⟨0, _⟩ => show win0_3.index t (0 : Fin 2) * 1024 + 1 * v.val = v.val; omega
    | ⟨1, _⟩ => show win0_3.index t (1 : Fin 2) * 512 + 1 * d.val = d.val; omega)
  show V m c main_v3 (((cfg0.win 3).blk t).view.emb (ix2 v d)) = _
  rw [hidx]
  refine (congrFun (wdec_entry m c) (ix2 v d)).trans ?_
  show extractStridedSlice S1024x512 ![0, 512] (m ((c : Thread nD τ).loc main_arg2)) slices_S1024x1024_S1024x512_0_512 (ix2 v d) = _
  exact extractStridedSlice_apply ![0, 512] _ slices_S1024x1024_S1024x512_0_512 (ix2 v d) (ix2 v (hi d)) (fun a => by
    match a with
    | ⟨0, _⟩ => show v.val = 0 + v.val; omega
    | ⟨1, _⟩ => show 512 + d.val = 512 + d.val; omega)

end Cert.KernelIdeal.JointBlocks

end
-- ==== Proof.JointSums.lean ====
/-
  The two payloads over blocks whose entries are known.

  If the decoder block's row `u` is row `u` of batch `b` of `D`, and the decoder weight block's row `v` is the decoder half
  of row `v` of `W`, then the decoder payload at `(u, v)` is the decoder projection `decProj D W b u v`. Likewise, if the
  encoder block's row `p` is row `r` of batch `b` of `A`, the encoder weight block's row `v` is the encoder half of row `v`
  of `W`, and the scratch at `(u, v)` is `decProj D W b u v`, then the output payload at `(0, p, u, v)` is
  `encProj A W b r v + decProj D W b u v`.
-/
import proofs.«120367_j47897475285549_2_alg».proof.Proof.JointSpec
import proofs.«120367_j47897475285549_2_alg».proof.Proof.JointPayload

noncomputable section

namespace Cert.KernelIdeal.JointSums

open Cert.KernelIdeal Cert.KernelIdeal.Gen Idealize.ShloMosaic Idealize.ShloMosaic.ValueIdx Cert.Joint
open Cert.KernelIdeal.JointPayload

/-- The decoder payload over blocks with known entries. -/
theorem dec_sum (x1 : Vec Ideal S1x128x512 .f32) (x3 : Vec Ideal S1024x512 .bf16)
    (D : S4x128x512.Idx → EReal) (W : S1024x1024.Idx → EReal) (b : Fin 4) (u : Fin 128) (v : Fin 1024)
    (h1 : ∀ d : Fin 512, x1 (ix3 (0 : Fin 1) u d) = D (ix3 b u d))
    (h3 : ∀ d : Fin 512, x3 (ix2 v d) = W (ix2 v (hi d))) :
    k0_pay1 (F := Ideal) x1 x3 (ix2 u v) = decProj D W b u v := by
  refine (pay1_apply x1 x3 u v).trans ?_
  unfold decProj
  exact Finset.sum_congr rfl fun d _ => congrArg₂ (· * ·) (h1 d) (h3 d)

/-- The output payload over blocks with known entries and a scratch holding the decoder projection. -/
theorem out_sum (x0 : Vec Ideal S1x32x512 .f32) (x2 : Vec Ideal S1024x512 .bf16) (s : Vec Ideal S128x1024 .f32)
    (A : S4x512x512.Idx → EReal) (D : S4x128x512.Idx → EReal) (W : S1024x1024.Idx → EReal)
    (b : Fin 4) (r : Fin 512) (p : Fin 32) (u : Fin 128) (v : Fin 1024)
    (h0 : ∀ d : Fin 512, x0 (ix3 (0 : Fin 1) p d) = A (ix3 b r d))
    (h2 : ∀ d : Fin 512, x2 (ix2 v d) = W (ix2 v (lo d)))
    (hs : s (ix2 u v) = decProj D W b u v) :
    k0_pay2 (F := Ideal) x0 x2 s (ix4 (0 : Fin 1) p u v) = encProj A W b r v + decProj D W b u v := by
  refine (pay2_apply x0 x2 s p u v).trans ?_
  refine congrArg₂ (· + ·) ?_ hs
  unfold encProj
  exact Finset.sum_congr rfl fun d _ => congrArg₂ (· * ·) (h0 d) (h2 d)

end Cert.KernelIdeal.JointSums

end
-- ==== Proof.JointValue.lean ====
/-
  The kernel's result array is the joint network's function of its arguments.

  Point `t` of the 64-point grid works on batch `b = t / 16` and on rows `32 · (t % 16) + p`, `p < 32`, of the `t` axis.
  The scratch buffer is stored at the first tile of each batch and only read afterwards, so after every point it
  holds the decoder projection of the point's own batch — by induction on the point: a first tile stores it from
  that batch's decoder block, any other tile has the batch of the tile before it. Hence at every point the output
  block holds, at `(0, p, u, v)`,

      encProj b (32 · (t % 16) + p) v + decProj b u v,

  which is the joint function read through the point's block; the 64 blocks tile the result array (row `r` of batch
  `b` lies in the block of point `16 · b + r / 32`), so the array ends holding the joint function everywhere.
-/
import proofs.«120367_j47897475285549_2_alg».proof.Proof.Gen.KernelIdeal.Value
import proofs.«120367_j47897475285549_2_alg».proof.Proof.JointSpec
import proofs.«120367_j47897475285549_2_alg».proof.Proof.JointPieces
import proofs.«120367_j47897475285549_2_alg».proof.Proof.JointPayload
import proofs.«120367_j47897475285549_2_alg».proof.Proof.JointBlocks
import proofs.«120367_j47897475285549_2_alg».proof.Proof.JointSums

noncomputable section

namespace Cert.KernelIdeal.JointValue

open Cert.KernelIdeal Cert.KernelIdeal.Gen Idealize.ShloMosaic Idealize.ShloMosaic.TcCoe Idealize.SL.Sem
open Idealize.ShloMosaic.Pipeline (Dat)
open Idealize.ShloMosaic.ValueIdx Cert.Joint
open Cert.KernelIdeal.JointPieces Cert.KernelIdeal.JointBlocks Cert.KernelIdeal.JointSums

variable (m : (ℓ : Loc nD τ sig) → Buf (Elt Ideal) ℓ) (ρ : Dev nD → PrngReg)

/-- The three argument arrays on core `c`, as launched. -/
abbrev encA (c : Dev nD) : S4x512x512.Idx → EReal := m ((c : Thread nD τ).loc main_arg0)
abbrev decA (c : Dev nD) : S4x128x512.Idx → EReal := m ((c : Thread nD τ).loc main_arg1)
abbrev wA (c : Dev nD) : S1024x1024.Idx → EReal := m ((c : Thread nD τ).loc main_arg2)

/-! ## What a point leaves, over its blocks -/

/-- At the first tile of a batch the output block holds the output payload over the freshly stored decoder payload,
    and the scratch holds that decoder payload. -/
theorem outs_A (c : Dev nD) (t : Fin cfg0.N) (h0 : t.val % 16 = 0) :
    outsAt0 m c t.val t.isLt
      = (k0_pay2 (iblk m c 0 t) (iblk m c 2 t) (k0_pay1 (iblk m c 1 t) (iblk m c 3 t)), k0_pay1 (iblk m c 1 t) (iblk m c 3 t)) := by
  rw [outsAt0_A m c t h0, out_A (F := Ideal), scratch_A (F := Ideal)]

/-- At any other tile the output block holds the output payload over the scratch the tile before left, and the scratch
    is unchanged. -/
theorem outs_B (c : Dev nD) (t : Fin cfg0.N) (h0 : ¬t.val % 16 = 0) :
    outsAt0 m c t.val t.isLt
      = (k0_pay2 (iblk m c 0 t) (iblk m c 2 t) (outsAt0 m c (t.val - 1) (Nat.lt_of_le_of_lt (Nat.sub_le _ _) t.isLt)).2,
         (outsAt0 m c (t.val - 1) (Nat.lt_of_le_of_lt (Nat.sub_le _ _) t.isLt)).2) := by
  rw [outsAt0_B m c t h0, out_B (F := Ideal)]
  rfl

/-! ## The decoder projection over a point's blocks -/

/-- The decoder payload over point `t`'s blocks is the decoder projection of the point's batch. -/
theorem dec_pay (c : Dev nD) (t : Fin cfg0.N) (u : Fin 128) (v : Fin 1024) :
    k0_pay1 (F := Ideal) (iblk m c 1 t) (iblk m c 3 t) (ix2 u v) = decProj (decA m c) (wA m c) (batchOf t) u v :=
  dec_sum (iblk m c 1 t) (iblk m c 3 t) (decA m c) (wA m c) (batchOf t) u v
    (fun d => dec_read m c t u d) (fun d => wdec_read m c t v d)

/-! ## The scratch after every point -/

/-- After point `n` the scratch holds the decoder projection of the batch `n / 16`. -/
theorem scratch_eq (c : Dev nD) (n : ℕ) : ∀ (h : n < cfg0.N) (u : Fin 128) (v : Fin 1024),
    (outsAt0 m c n h).2 (ix2 u v) = decProj (decA m c) (wA m c) (batchOf ⟨n, h⟩) u v := by
  induction n with
  | zero =>
    intro h u v
    exact (congrFun (congrArg Prod.snd (outs_A m c ⟨0, h⟩ rfl)) (ix2 u v)).trans (dec_pay m c ⟨0, h⟩ u v)
  | succ n ih =>
    intro h u v
    by_cases h0 : (n + 1) % 16 = 0
    · exact (congrFun (congrArg Prod.snd (outs_A m c ⟨n + 1, h⟩ h0)) (ix2 u v)).trans (dec_pay m c ⟨n + 1, h⟩ u v)
    · refine (congrFun (congrArg Prod.snd (outs_B m c ⟨n + 1, h⟩ h0)) (ix2 u v)).trans ?_
      refine (ih (Nat.lt_of_succ_lt h) u v).trans ?_
      exact congrArg (fun b => decProj (decA m c) (wA m c) b u v) (Fin.ext (show n / 16 = (n + 1) / 16 by omega))

/-! ## The output block after every point -/

/-- After point `t` the output block holds, at `(0, p, u, v)`, the joint value of batch `t / 16`, row `32 · (t % 16) + p`. -/
theorem out_eq (c : Dev nD) (t : Fin cfg0.N) (p : Fin 32) (u : Fin 128) (v : Fin 1024) :
    (outsAt0 m c t.val t.isLt).1 (ix4 (0 : Fin 1) p u v)
      = encProj (encA m c) (wA m c) (batchOf t) (rowOf t p) v + decProj (decA m c) (wA m c) (batchOf t) u v := by
  by_cases h0 : t.val % 16 = 0
  · refine (congrFun (congrArg Prod.fst (outs_A m c t h0)) (ix4 (0 : Fin 1) p u v)).trans ?_
    exact out_sum (iblk m c 0 t) (iblk m c 2 t) (k0_pay1 (iblk m c 1 t) (iblk m c 3 t)) (encA m c) (decA m c) (wA m c)
      (batchOf t) (rowOf t p) p u v (fun d => enc_read m c t p d) (fun d => wenc_read m c t v d) (dec_pay m c t u v)
  · refine (congrFun (congrArg Prod.fst (outs_B m c t h0)) (ix4 (0 : Fin 1) p u v)).trans ?_
    refine out_sum (iblk m c 0 t) (iblk m c 2 t) (outsAt0 m c (t.val - 1) (Nat.lt_of_le_of_lt (Nat.sub_le _ _) t.isLt)).2
      (encA m c) (decA m c) (wA m c) (batchOf t) (rowOf t p) p u v (fun d => enc_read m c t p d)
      (fun d => wenc_read m c t v d) ?_
    refine (scratch_eq m c (t.val - 1) (Nat.lt_of_le_of_lt (Nat.sub_le _ _) t.isLt) u v).trans ?_
    exact congrArg (fun b => decProj (decA m c) (wA m c) b u v) (Fin.ext (show (t.val - 1) / 16 = t.val / 16 by omega))

/-! ## From the blocks to the array -/

/-- What point `t` writes back is the joint function read through the point's block. -/
theorem flushed_eq (c : Dev nD) (t : Fin cfg0.N) :
    (dats m 0 c).flushed 4 t
      = ((cfg0.win 4).blk t).view.read (Elt Ideal) (joint (encA m c) (decA m c) (wA m c)) := by
  rw [Value.flushed4]
  refine funext fun (y : S1x32x128x1024.Idx) => ?_
  obtain ⟨z, p, u, v, rfl⟩ : ∃ (z : Fin 1) (p : Fin 32) (u : Fin 128) (v : Fin 1024), y = ix4 z p u v :=
    ⟨y 0, y 1, y 2, y 3, eq_ix4 y⟩
  obtain rfl : z = 0 := Fin.ext (by omega)
  obtain ⟨-, -, -, -, -, -, -, -, -, -, e0, e1, e2, e3⟩ := idx_facts t
  have hemb : ((cfg0.win 4).blk t).view.emb (ix4 (0 : Fin 1) p u v) = ix4 (batchOf t) (rowOf t p) u v :=
    funext fun a => Fin.ext (by
      match a with
      | ⟨0, _⟩ => show win0_4.index t (0 : Fin 4) * 1 + 1 * (0 : Nat) = t.val / 16; omega
      | ⟨1, _⟩ => show win0_4.index t (1 : Fin 4) * 32 + 1 * p.val = 32 * (t.val % 16) + p.val; omega
      | ⟨2, _⟩ => show win0_4.index t (2 : Fin 4) * 128 + 1 * u.val = u.val; omega
      | ⟨3, _⟩ => show win0_4.index t (3 : Fin 4) * 1024 + 1 * v.val = v.val; omega)
  show (outsAt0 m c t.val t.isLt).1 (ix4 (0 : Fin 1) p u v)
    = joint (encA m c) (decA m c) (wA m c) (((cfg0.win 4).blk t).view.emb (ix4 (0 : Fin 1) p u v))
  rw [hemb]
  exact out_eq m c t p u v

/-- An index of the result array is in point `t`'s block iff each coordinate is in the block's range on its axis. -/
theorem mem_blk (t : Fin cfg0.N) (i : S4x512x128x1024.Idx) :
    i ∈ ((cfg0.win 4).blk t).view.set ↔ ∀ a : Fin 4, win0_4.index t a * S1x32x128x1024.size a ≤ (i a).val
      ∧ (i a).val < win0_4.index t a * S1x32x128x1024.size a + S1x32x128x1024.size a := by
  show i ∈ ((View.whole main_v4).slice (win0_4.rect t)).set ↔ _
  rw [View.set_slice_whole, Rect.mem_set_unit]
  exact Iff.rfl

/-- Every index of the result array is in the block of the point `16 · b + r / 32` of its batch `b` and row `r`. -/
theorem cover (i : S4x512x128x1024.Idx) :
    ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 128 := (i 2).isLt
  have h3 : (i 3).val < 1024 := (i 3).isLt
  have hN : cfg0.N = 64 := N_0
  let t : Fin cfg0.N := ⟨16 * (i 0).val + (i 1).val / 32, by rw [hN]; omega⟩
  have ht : t.val = 16 * (i 0).val + (i 1).val / 32 := rfl
  obtain ⟨-, -, -, -, -, -, -, -, -, -, e0, e1, e2, e3⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 128 ≤ (i 2).val ∧ (i 2).val < win0_4.index t (2 : Fin 4) * 128 + 128; omega
  | ⟨3, _⟩ => show win0_4.index t (3 : Fin 4) * 1024 ≤ (i 3).val ∧ (i 3).val < win0_4.index t (3 : Fin 4) * 1024 + 1024; omega

/-- So the result array ends holding the joint function of the argument arrays. -/
theorem final (c : Dev nD) : (dats m 0 c).arrAt 4 cfg0.N = joint (encA m c) (decA m c) (wA m c) :=
  (dats m 0 c).arrAt_eq_of_cover 4 (joint (encA m c) (decA m c) (wA m c)) (fun t _ => flushed_eq m c t) cover

/-- The kernel's run, read: the result array at the joint function, the arguments unchanged. -/
theorem run : θ_run defs (onTc (τ := τ) (main (F := Ideal))) ⟨m, fun _ => 0, ρ⟩ fun r => ∀ c : Dev nD,
      r.2.mem ((c : Thread nD τ).loc main_v4) = joint (encA m c) (decA m c) (wA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.JointValue

end
-- ==== Proof.lean ====
/-
  The joint network `out[b, t, u, v] = (∑ d, enc[b, t, d] · W[v, d]) + (∑ d, dec[b, u, d] · W[v, 512 + d])`, computed by a
  tiled kernel and by a plain reference, agree over the extended reals.

  The kernel walks a 4 × 16 grid: for each batch it computes the decoder projection once, at the batch's first tile,
  keeps it in a scratch buffer for the batch's other fifteen tiles, and at every tile adds the encoder projection of
  the tile's 32 rows to it. The reference takes the two projections as whole `dot_general`s and adds their broadcasts.
  Both are the same sums of the same products in the same order, so no law of the extended reals beyond reading
  each side index by index is needed, and the finiteness of the inputs is never used.

  The three frames are the programs' runs with the results dropped; the idealization rewrote nothing, so what it
  must preserve is empty; the value claim sets the kernel's run (its result array is `joint` of its arguments) beside
  the reference's run (its result is `joint` of its arguments) on arguments that agree.
-/
import proofs.«120367_j47897475285549_2_alg».proof.Defs
import proofs.«120367_j47897475285549_2_alg».proof.Proof.Gen.Kernel
import proofs.«120367_j47897475285549_2_alg».proof.Proof.Gen.Kernel.Frame
import proofs.«120367_j47897475285549_2_alg».proof.Proof.Gen.KernelIdeal
import proofs.«120367_j47897475285549_2_alg».proof.Proof.Gen.KernelIdeal.Frame
import proofs.«120367_j47897475285549_2_alg».proof.Proof.Gen.ReferenceIdeal
import proofs.«120367_j47897475285549_2_alg».proof.Proof.Gen.KernelIdeal.Value
import proofs.«120367_j47897475285549_2_alg».proof.Proof.Gen.ReferenceIdeal.Run
import proofs.«120367_j47897475285549_2_alg».proof.Proof.Gen.ReferenceIdeal.Read
import proofs.«120367_j47897475285549_2_alg».proof.Proof.Gen.Pre_finite_inputs
import proofs.«120367_j47897475285549_2_alg».proof.Proof.JointSpec
import proofs.«120367_j47897475285549_2_alg».proof.Proof.JointRef
import proofs.«120367_j47897475285549_2_alg».proof.Proof.JointValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the joint function of their arguments, and the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Joint.joint (Cert.KernelIdeal.JointValue.encA m c) (Cert.KernelIdeal.JointValue.decA m c)
    (Cert.KernelIdeal.JointValue.wA m c), Cert.KernelIdeal.JointValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.Joint.Ref.ref_eq_joint, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
